-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x32 : Shape := ⟨2, ![4096, 32]⟩
abbrev S32x4096 : Shape := ⟨2, ![32, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096 .f32) (main_v13 : IVec S_ 1) (main_v16 : IVec S32x4096 1) : IVec S_ 1 :=
  let main_c_5 : IVec S_ 1 := constantI S_ 1 1#1
  let main_v17 : IVec S_ 1 := (fun x v => Host.reduce IntOp.andi x v reducesTo_S32x4096_S_d0_1 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : IVec S4096x4096 32) (main_arg2 : FVec F S4096x32 .f32) (main_arg3 : FVec F S4096x32 .f32) (main_arg4 : FVec F S32x4096 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S32x4096 .f32 := Host.absf main_arg4
  let main_cst_4 : FVec F S_ .f32 := constant S_ .f32 0x7F800000#32
  let main_v15 : FVec F S32x4096 .f32 := broadcastInDim S32x4096 ![] bcast_S_S32x4096 main_cst_4
  let main_v16 : IVec S32x4096 1 := cmpf .olt main_v14 main_v15
  fn_part1 (F := F) main_arg5 main_v13 main_v16
-- ==== Kernel.lean ====
abbrev S4x2048x4096 : Shape := ⟨3, ![4, 2048, 4096]⟩
abbrev S4096x4096 : Shape := ⟨2, ![4096, 4096]⟩
abbrev S4096x32 : Shape := ⟨2, ![4096, 32]⟩
abbrev S32x4096 : Shape := ⟨2, ![32, 4096]⟩
abbrev S4096 : Shape := ⟨1, ![4096]⟩
abbrev S256x4096 : Shape := ⟨2, ![256, 4096]⟩
abbrev S256x32 : Shape := ⟨2, ![256, 32]⟩
abbrev S256x32x128 : Shape := ⟨3, ![256, 32, 128]⟩
abbrev S256x32x1 : Shape := ⟨3, ![256, 32, 1]⟩
abbrev S8192x4096 : Shape := ⟨2, ![8192, 4096]⟩
abbrev S1x4096 : Shape := ⟨2, ![1, 4096]⟩
abbrev S1024x1024 : Shape := ⟨2, ![1024, 1024]⟩
abbrev S2048x1024 : Shape := ⟨2, ![2048, 1024]⟩
abbrev S1x2048 : Shape := ⟨2, ![1, 2048]⟩
abbrev S1024x2048 : Shape := ⟨2, ![1024, 2048]⟩

abbrev nBuf : Space → Nat
  | .hbm => 12
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x32, .f32⟩
  | .hbm, ⟨3, _⟩ => ⟨S4096x32, .f32⟩
  | .hbm, ⟨4, _⟩ => ⟨S32x4096, .f32⟩
  | .hbm, ⟨5, _⟩ => ⟨S4096, .f32⟩
  | .hbm, ⟨6, _⟩ => ⟨S4096x4096, .bf16⟩
  | .hbm, ⟨7, _⟩ => ⟨S8192x4096, .f32⟩
  | .hbm, ⟨8, _⟩ => ⟨S8192x4096, .bf16⟩
  | .hbm, ⟨9, _⟩ => ⟨S1x4096, .f32⟩
  | .hbm, ⟨10, _⟩ => ⟨S8192x4096, .f32⟩
  | .hbm, ⟨11, _⟩ => ⟨S4x2048x4096, .f32⟩
  | .local _ .vmem, ⟨0, _⟩ => ⟨S256x4096, .i32⟩
  | .local _ .vmem, ⟨1, _⟩ => ⟨S256x4096, .i32⟩
  | .local _ .vmem, ⟨2, _⟩ => ⟨S256x32, .f32⟩
  | .local _ .vmem, ⟨3, _⟩ => ⟨S256x32, .f32⟩
  | .local _ .vmem, ⟨4, _⟩ => ⟨S256x32, .f32⟩
  | .local _ .vmem, ⟨5, _⟩ => ⟨S256x32, .f32⟩
  | .local _ .vmem, ⟨6, _⟩ => ⟨S32x4096, .f32⟩
  | .local _ .vmem, ⟨7, _⟩ => ⟨S256x4096, .bf16⟩
  | .local _ .vmem, ⟨8, _⟩ => ⟨S256x4096, .bf16⟩
  | .local _ .vmem, ⟨9, _⟩ => ⟨S1024x1024, .bf16⟩
  | .local _ .vmem, ⟨10, _⟩ => ⟨S1024x1024, .bf16⟩
  | .local _ .vmem, ⟨11, _⟩ => ⟨S2048x1024, .bf16⟩
  | .local _ .vmem, ⟨12, _⟩ => ⟨S2048x1024, .bf16⟩
  | .local _ .vmem, ⟨13, _⟩ => ⟨S1x2048, .f32⟩
  | .local _ .vmem, ⟨14, _⟩ => ⟨S1x2048, .f32⟩
  | .local _ .vmem, ⟨15, _⟩ => ⟨S1024x2048, .f32⟩
  | .local _ .vmem, ⟨16, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![8, 2, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S256x4096_S256x4096_0_0 : ∀ a, (![0, 0] : Fin 2 → Nat) a + S256x4096.size a ≤ S256x4096.size a
  h_S256x4096 : 0 < S256x4096.numel
  shapeCasts_S256x4096_S256x32x128 : S256x4096.ShapeCasts S256x32x128
  inb_S256x32_S256x32_0_0 : ∀ a, (![0, 0] : Fin 2 → Nat) a + S256x32.size a ≤ S256x32.size a
  h_S256x32 : 0 < S256x32.numel
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  bitsLt_bf16_f32 : FTy.bits .bf16 < FTy.bits .f32
  inb_S32x4096_S32x4096_0_0 : ∀ a, (![0, 0] : Fin 2 → Nat) a + S32x4096.size a ≤ S32x4096.size a
  h_S32x4096 : 0 < S32x4096.numel
  packedbf16_S256x4096_S256x4096_0_0 : (Rect.unit (s := S256x4096) ![0, 0] S256x4096.size inb_S256x4096_S256x4096_0_0).PackedRows (EltTy.packing .bf16)
  shapeCasts_S4x2048x4096_S8192x4096 : S4x2048x4096.ShapeCasts S8192x4096
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x4096_S4x2048x4096 : S8192x4096.ShapeCasts S4x2048x4096
  dot_S256x32_S32x4096_S256x4096_1_0_0_1_n_n_wf : DotDims.WF S256x32 S32x4096 S256x4096 [1] [0] [0] [1] [] []
  dot_S1024x1024_S2048x1024_S1024x2048_1_1_0_0_n_n_wf : DotDims.WF S1024x1024 S2048x1024 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .i32 = 32 ∨ (Rect.block (s := S4096x4096) S256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S4096x32.size a
  hwx0_1 : ∀ i : grid0.Coords, EltTy.bits .f32 = 32 ∨ (Rect.block (s := S4096x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S4096x32.size a
  hwx0_2 : ∀ i : grid0.Coords, EltTy.bits .f32 = 32 ∨ (Rect.block (s := S4096x32) S256x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x4096.size a ≤ S32x4096.size a
  hwx0_3 : ∀ i : grid0.Coords, EltTy.bits .f32 = 32 ∨ (Rect.block (s := S32x4096) S32x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .bf16 = 32 ∨ (Rect.block (s := S4096x4096) S256x4096.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .bf16 = 32 ∨ (Rect.block (s := S8192x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S4096x4096.size a
  hwx1_1 : ∀ i : grid1.Coords, EltTy.bits .bf16 = 32 ∨ (Rect.block (s := S4096x4096) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x4096.size a
  hwx1_3 : ∀ i : grid1.Coords, EltTy.bits .f32 = 32 ∨ (Rect.block (s := S8192x4096) S1024x2048.size (cc1_transform_3 i) (hinb1_3 i)).WholeWords (EltTy.packing .f32)

variable [Facts₀]

def dot_S256x32_S32x4096_S256x4096_1_0_0_1_n_n : DotDims S256x32 S32x4096 S256x4096 where
  lhsContracting := [1]
  rhsContracting := [0]
  lhsNonContracting := [0]
  rhsNonContracting := [1]
  lhsBatch := []
  rhsBatch := []
  wf := dot_S256x32_S32x4096_S256x4096_1_0_0_1_n_n_wf
def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x32 : Shape := ⟨2, ![4096, 32]⟩
abbrev S32x4096 : Shape := ⟨2, ![32, 4096]⟩
abbrev S4096 : Shape := ⟨1, ![4096]⟩
abbrev S_ : Shape := ⟨0, ![]⟩
abbrev S4096x32x128 : Shape := ⟨3, ![4096, 32, 128]⟩
abbrev S4096x32x1 : Shape := ⟨3, ![4096, 32, 1]⟩
abbrev S1x1x4096 : Shape := ⟨3, ![1, 1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x32, .f32⟩
  | .hbm, ⟨3, _⟩ => ⟨S4096x32, .f32⟩
  | .hbm, ⟨4, _⟩ => ⟨S32x4096, .f32⟩
  | .hbm, ⟨5, _⟩ => ⟨S4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x32x128, .f32⟩
  | .hbm, ⟨11, _⟩ => ⟨S4096x32x1, .f32⟩
  | .hbm, ⟨12, _⟩ => ⟨S4096x32x128, .f32⟩
  | .hbm, ⟨13, _⟩ => ⟨S4096x32x128, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4x2048x4096, .f32⟩
  | .hbm, ⟨18, _⟩ => ⟨S1x1x4096, .f32⟩
  | .hbm, ⟨19, _⟩ => ⟨S4x2048x4096, .f32⟩
  | .hbm, ⟨20, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  shapeCasts_S4096x4096_S4096x32x128 : S4096x4096.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x32_S32x4096_S4096x4096_1_0_0_1_n_n_wf : DotDims.WF S4096x32 S32x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The mathematics of the quantized linear layer, stated once, index by index, on the extended reals.

  The weight matrix is the dequantized code matrix plus a rank-32 correction:
    weight (o, i) = (code (o, i) - 8) * scale (o, i / 128) + ∑ r < 32, U (o, r) * V (r, i)
  where a code is a 32-bit integer read signed and exactly, and each row of 4096 codes is cut into 32 groups of 128
  consecutive columns that share one scale. The layer is
    out (b, s, o) = (∑ i < 4096, x (b, s, i) * weight (o, i)) + bias o.
  The same layer on the flattened batch, rows r = 2048 * b + s, reads
    out2 (r, o) = (∑ i < 4096, x2 (r, i) * weight (o, i)) + bias2 (0, o).

  One law joins a sum taken whole to the same sum taken in four consecutive blocks of 1024 terms starting from zero.
  Addition of extended reals is commutative and associative everywhere, infinities included, so the law needs no
  finiteness of the terms.
-/
import Idealize.ShloMosaic.PureOps.Ideal
import Idealize.ShloMosaic.Lib.ValueIdx

noncomputable section

open scoped BigOperators

namespace QuantLinear

open Idealize.ShloMosaic Idealize.ShloMosaic.ValueIdx

/-- The group of 128 consecutive columns that column `i` of a row of 4096 belongs to. -/
def group (i : Fin 4096) : Fin 32 := ⟨i.val / 128, by have := i.isLt; omega⟩

/-- Term `c` of block `a` among the four consecutive blocks of 1024 that make up 4096 terms: `1024 * a + c`. -/
def blk (a : Fin 4) (c : Fin 1024) : Fin 4096 := ⟨1024 * a.val + c.val, by have := a.isLt; have := c.isLt; omega⟩

/-- The weight matrix: the dequantized codes plus the rank-32 correction, entry by entry. -/
def weight (q : (⟨2, ![4096, 4096]⟩ : Shape).Idx → BitVec 32) (s u : (⟨2, ![4096, 32]⟩ : Shape).Idx → EReal)
    (v : (⟨2, ![32, 4096]⟩ : Shape).Idx → EReal) : (⟨2, ![4096, 4096]⟩ : Shape).Idx → EReal :=
  fun j => (FloatOps.sitofp (F := Ideal) .f32 (q j) - Ideal.ofBits .f32 0x41000000#32) * s (ix2 (j 0) (group (j 1)))
    + ∑ r : Fin 32, u (ix2 (j 0) r) * v (ix2 r (j 1))

/-- The layer on the flattened batch: row `r` of the input against row `o` of the weight, plus the bias. -/
def out2 (x2 : (⟨2, ![8192, 4096]⟩ : Shape).Idx → EReal) (w : (⟨2, ![4096, 4096]⟩ : Shape).Idx → EReal)
    (b2 : (⟨2, ![1, 4096]⟩ : Shape).Idx → EReal) : (⟨2, ![8192, 4096]⟩ : Shape).Idx → EReal :=
  fun j => (∑ k : Fin 4096, x2 (ix2 (j 0) k) * w (ix2 (j 1) k)) + b2 (ix2 0 (j 1))

/-- The layer: `out (b, s, o) = (∑ i, x (b, s, i) * w (o, i)) + bias o`. -/
def out (x : (⟨3, ![4, 2048, 4096]⟩ : Shape).Idx → EReal) (w : (⟨2, ![4096, 4096]⟩ : Shape).Idx → EReal)
    (b : (⟨1, ![4096]⟩ : Shape).Idx → EReal) : (⟨3, ![4, 2048, 4096]⟩ : Shape).Idx → EReal :=
  fun j => (∑ k : Fin 4096, x (ix3 (j 0) (j 1) k) * w (ix2 (j 2) k)) + b (ix1 (j 2))

end QuantLinear

end
-- ==== Proof.RefValue.lean ====
/-
  The reference program's value: its run read back one operation at a time, and identified with the layer's
  specification entry by entry.

  The reference builds the weight matrix in two stages. The codes, converted and shifted by 8, are cut from
  [4096, 4096] into [4096, 32, 128], multiplied by the scales broadcast along the last axis, and laid back as
  [4096, 4096]: on indices the two reshapes cancel, and entry (o, i) meets the scale of group i / 128. The rank-32
  correction is a contraction over 32 terms. The layer is then a contraction over 4096 terms plus the bias, which is
  broadcast from [4096] through [1, 1, 4096] to the output's shape and so read at the output's last coordinate.
-/
import proofs.«171439_j11579231830187_2_alg».proof.Defs
import proofs.«171439_j11579231830187_2_alg».proof.Proof.Gen.ReferenceIdeal.Run
import proofs.«171439_j11579231830187_2_alg».proof.Proof.Gen.ReferenceIdeal.Read
import proofs.«171439_j11579231830187_2_alg».proof.Proof.Spec
import Idealize.ShloMosaic.Lib.ValueIdx

noncomputable section

open scoped BigOperators

namespace Cert.ReferenceIdeal.RefValue

open Idealize.ShloMosaic Idealize.ShloMosaic.ValueIdx Cert.ReferenceIdeal Cert.ReferenceIdeal.Read

/-! ## Index equations -/

/-- Cutting a row of 4096 columns into 32 groups of 128 and laying it back is the identity on indices:
    with `n = 4096 a + b` and `b < 4096`, `((n / 4096 * 32 + n / 128 % 32) * 128 + n % 128) = n`. -/
theorem idx_v3_v7 (a b : Fin 4096) : idx_main_v3 (idx_main_v7 (ix2 a b)) = ix2 a b :=
  funext fun d => Fin.ext (by
    have ha := a.isLt
    have hb := b.isLt
    match d with
    | ⟨0, _⟩ =>
      show (((a.val * 4096 + b.val) / 4096 * 32 + (a.val * 4096 + b.val) / 128 % 32) * 128
        + (a.val * 4096 + b.val) % 128) / 4096 = a.val
      omega
    | ⟨1, _⟩ =>
      show (((a.val * 4096 + b.val) / 4096 * 32 + (a.val * 4096 + b.val) / 128 % 32) * 128
        + (a.val * 4096 + b.val) % 128) % 4096 = b.val
      omega)

/-- Entry `(a, b)` of the re-laid product meets the scale of row `a` and group `b / 128`:
    with `n = 4096 a + b` and `b < 4096`, `n / 4096 = a` and `n / 128 % 32 = b / 128`. -/
theorem idx_v4_v5_v7 (a b : Fin 4096) :
    idx_main_v4 (idx_main_v5 (idx_main_v7 (ix2 a b))) = ix2 a (QuantLinear.group b) :=
  funext fun d => Fin.ext (by
    have ha := a.isLt
    have hb := b.isLt
    match d with
    | ⟨0, _⟩ =>
      show (a.val * 4096 + b.val) / 4096 = a.val
      omega
    | ⟨1, _⟩ =>
      show (a.val * 4096 + b.val) / 128 % 32 = b.val / 128
      omega)

/-- The correction's left operand is read at row `a`, term `k`. -/
theorem lidx_v8 (a b : Fin 4096) (k : Fin 32) : lidx_main_v8 (ix2 a b) k = ix2 a k :=
  funext fun d => Fin.ext (by match d with | ⟨0, _⟩ => rfl | ⟨1, _⟩ => rfl)

/-- The correction's right operand is read at term `k`, column `b`. -/
theorem ridx_v8 (a b : Fin 4096) (k : Fin 32) : ridx_main_v8 (ix2 a b) k = ix2 k b :=
  funext fun d => Fin.ext (by match d with | ⟨0, _⟩ => rfl | ⟨1, _⟩ => rfl)

/-- The layer's input is read at its own batch and row, term `k`. -/
theorem lidx_v10 (b : Fin 4) (s : Fin 2048) (o k : Fin 4096) : lidx_main_v10 (ix3 b s o) k = ix3 b s k :=
  funext fun d => Fin.ext (by match d with | ⟨0, _⟩ => rfl | ⟨1, _⟩ => rfl | ⟨2, _⟩ => rfl)

/-- The weight is read at row `o` (the output's last coordinate), term `k`. -/
theorem ridx_v10 (b : Fin 4) (s : Fin 2048) (o k : Fin 4096) : ridx_main_v10 (ix3 b s o) k = ix2 o k :=
  funext fun d => Fin.ext (by match d with | ⟨0, _⟩ => rfl | ⟨1, _⟩ => rfl)

/-- The bias, broadcast through [1, 1, 4096], is read at the output's last coordinate. -/
theorem idx_v11_v12 (b : Fin 4) (s : Fin 2048) (o : Fin 4096) : idx_main_v11 (idx_main_v12 (ix3 b s o)) = ix1 o :=
  funext fun d => Fin.ext (by match d with | ⟨0, _⟩ => rfl)

/-! ## The weight stage -/

/-- The reference's weight matrix is the specification's, entry by entry. -/
theorem weight_apply (x1 : S4096x4096.Idx → BitVec 32) (x2 x3 : S4096x32.Idx → EReal) (x4 : S32x4096.Idx → EReal)
    (a b : Fin 4096) :
    val_main_v9 (F := Ideal) x1 x2 x3 x4 (ix2 a b) = QuantLinear.weight x1 x2 x3 x4 (ix2 a b) := by
  rw [val_main_v9_apply, val_main_v7_apply, val_main_v6_apply, val_main_v3_apply, val_main_v2_apply,
    val_main_v0_apply, val_main_v1_apply, val_main_cst_apply, val_main_v5_apply, val_main_v4_apply,
    val_main_v8_apply, idx_v3_v7, idx_v4_v5_v7]
  simp only [lidx_v8, ridx_v8, Ideal.addf_def, Ideal.subf_def, Ideal.mulf_def, Ideal.ofBits_def]
  rfl

/-! ## The layer -/

/-- The reference program computes the layer's specification. -/
theorem result_eq (x0 : S4x2048x4096.Idx → EReal) (x1 : S4096x4096.Idx → BitVec 32) (x2 x3 : S4096x32.Idx → EReal)
    (x4 : S32x4096.Idx → EReal) (x5 : S4096.Idx → EReal) :
    val_main_v13 (F := Ideal) x0 x1 x2 x3 x4 x5 = QuantLinear.out x0 (QuantLinear.weight x1 x2 x3 x4) x5 := by
  funext i
  obtain ⟨b, s, o, rfl⟩ : ∃ (b : Fin 4) (s : Fin 2048) (o : Fin 4096), i = ix3 b s o := ⟨i 0, i 1, i 2, eq_ix3 i⟩
  rw [val_main_v13_apply, val_main_v10_apply, val_main_v12_apply, val_main_v11_apply, idx_v11_v12, Ideal.addf_def]
  show _ = (∑ k : Fin 4096, x0 (ix3 b s k) * QuantLinear.weight x1 x2 x3 x4 (ix2 o k)) + x5 (ix1 o)
  congr 1
  refine Finset.sum_congr rfl fun k _ => ?_
  rw [lidx_v10, ridx_v10, weight_apply]

end Cert.ReferenceIdeal.RefValue

end
-- ==== Proof.ResultRun.lean ====
/-
  The idealized kernel's run with its result named.

  The program is four stretches in a row: the first kernel region, three host operations (a reshape and a change of
  float format of the input, a reshape of the bias), the second kernel region, and one host operation (the reshape of
  the result). The contents of the device's buffers at each boundary are a fold from the launch memory: `W0` at launch,
  `W1` after the first region (its arrays at what its write-backs leave), `W2` after the first host stretch, `W3` after
  the second region, `W4` at the end. Every weakly fair execution terminates with every unscoped buffer at `W4`; read
  at the result buffer this names the result, and read at the six arguments it returns the launch contents.
-/
import proofs.«171439_j11579231830187_2_alg».proof.Defs
import proofs.«171439_j11579231830187_2_alg».proof.Proof.Gen.KernelIdeal.Frame

set_option maxRecDepth 16384

noncomputable section

namespace Cert.KernelIdeal.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, with
    the result buffer at the last boundary's contents and the six argument arrays as launched. -/
theorem run : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.ResultRun

end
-- ==== Proof.HostStretches.lean ====
/-
  What the host operations between and after the two kernel regions do to the buffers, on the extended reals.

  Before the second region the host flattens the input [4, 2048, 4096] to [8192, 4096] (row `r` of the flat array is
  row `r % 2048` of batch `r / 2048`), changes its float format (the identity on the extended reals), and gives the bias
  a leading unit axis [4096] → [1, 4096]; it leaves the weight, which the first region wrote, as it is. After the second
  region it lays the flat result [8192, 4096] out as [4, 2048, 4096]: entry `(b, s, o)` is the flat entry `(2048 b + s, o)`.
-/
import proofs.«171439_j11579231830187_2_alg».proof.Defs
import proofs.«171439_j11579231830187_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Stretch

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

open Idealize.ShloMosaic.StableHlo

/-! ## The layout operations at an index -/

/-- Row `r` of the flattened batch is row `r % 2048` of batch `r / 2048`. -/
def batchRow (r : Fin 8192) : Fin 4 × Fin 2048 :=
  (⟨r.val / 2048, by have := r.isLt; omega⟩, ⟨r.val % 2048, Nat.mod_lt _ (by decide)⟩)

/-- The batch laid out as [8192, 4096] reads, at `(r, k)`, the batch at `(r / 2048, r % 2048, k)`: both sit at
    row-major position `4096 r + k`, since `2048 (r / 2048) + r % 2048 = r`. -/
theorem flatten_apply {α : Type} (x : S4x2048x4096.Idx → α) (r : Fin 8192) (k : Fin 4096) :
    shapeCast S8192x4096 x shapeCasts_S4x2048x4096_S8192x4096 (ix2 r k)
      = x (ix3 (batchRow r).1 (batchRow r).2 k) :=
  shapeCast_apply x shapeCasts_S4x2048x4096_S8192x4096 _ _ (by
    rw [Shape.rowMajor_val_three, Shape.rowMajor_val_two]
    show (r.val / 2048 * 2048 + r.val % 2048) * 4096 + k.val = r.val * 4096 + k.val
    omega)

/-- The flat result laid out as [4, 2048, 4096] reads, at `(b, s, o)`, the flat array at `(2048 b + s, o)`. -/
theorem unflatten_apply {α : Type} (x : S8192x4096.Idx → α) (b : Fin 4) (s : Fin 2048) (o : Fin 4096) :
    shapeCast S4x2048x4096 x shapeCasts_S8192x4096_S4x2048x4096 (ix3 b s o)
      = x (ix2 (⟨2048 * b.val + s.val, by have := b.isLt; have := s.isLt; omega⟩ : Fin 8192) o) :=
  shapeCast_apply x shapeCasts_S8192x4096_S4x2048x4096 _ _ (by
    rw [Shape.rowMajor_val_three, Shape.rowMajor_val_two]
    show (2048 * b.val + s.val) * 4096 + o.val = (b.val * 2048 + s.val) * 4096 + o.val
    omega)

/-! ## The first host stretch: the second region's entry contents -/

/-- The second region's input is the launch input, flattened; the change of float format is the identity on the
    extended reals. -/
theorem entry_input (c : Dev nD) (r : Fin 8192) (k : Fin 4096) :
    V2 m ρ c main_v2 (ix2 r k) = m ((c : Thread nD τ).loc main_arg0) (ix3 (batchRow r).1 (batchRow r).2 k) := by
  have e : V2 m ρ c main_v2
      = truncf (F := Ideal) .bf16 (shapeCast S8192x4096 (m ((c : Thread nD τ).loc main_arg0))
          shapeCasts_S4x2048x4096_S8192x4096) bitsLt_bf16_f32 := by
    show StableHlo.after hostOps1 (W1 m ρ c) (Proc.devRef .tc main_v2) = _
    after_results
    rw [W1_of_ne m ρ c main_arg0 (by decide)]
    rfl
  rw [e]
  exact flatten_apply _ r k

/-- The second region's bias is the launch bias with a leading unit axis. -/
theorem entry_bias (c : Dev nD) (o : Fin 4096) :
    V2 m ρ c main_v3 (ix2 (0 : Fin 1) o) = m ((c : Thread nD τ).loc main_arg5) (ix1 o) := by
  have e : V2 m ρ c main_v3
      = shapeCast S1x4096 (m ((c : Thread nD τ).loc main_arg5)) shapeCasts_S4096_S1x4096 := by
    show StableHlo.after hostOps1 (W1 m ρ c) (Proc.devRef .tc main_v3) = _
    after_results
    rw [W1_of_ne m ρ c main_arg5 (by decide)]
    rfl
  rw [e]
  exact shapeCast_a_1a_apply _ shapeCasts_S4096_S1x4096 (0 : Fin 1) o

/-- No operation of the first host stretch writes the weight: the second region finds what the first region left. -/
theorem entry_weight (c : Dev nD) : V2 m ρ c main_v0 = (dat0 (F := Ideal) (V0 m ρ) c).arrAt 4 cfg0.N := by
  show StableHlo.after hostOps1 (W1 m ρ c) (Proc.devRef .tc main_v0) = _
  after_results
  exact W1_arr m ρ c 4

/-- The first region's inputs are the launch memory. -/
theorem launch_arg1 (c : Dev nD) : V0 m ρ c main_arg1 = m ((c : Thread nD τ).loc main_arg1) := rfl
theorem launch_arg2 (c : Dev nD) : V0 m ρ c main_arg2 = m ((c : Thread nD τ).loc main_arg2) := rfl
theorem launch_arg3 (c : Dev nD) : V0 m ρ c main_arg3 = m ((c : Thread nD τ).loc main_arg3) := rfl
theorem launch_arg4 (c : Dev nD) : V0 m ρ c main_arg4 = m ((c : Thread nD τ).loc main_arg4) := rfl

/-! ## The host tail: the result buffer -/

/-- The result is the second region's output, laid out as [4, 2048, 4096]. -/
theorem result_entry (c : Dev nD) (b : Fin 4) (s : Fin 2048) (o : Fin 4096) :
    W4 m ρ c (Proc.devRef .tc main_v5) (ix3 b s o)
      = (dat1 (F := Ideal) (V2 m ρ) c).arrAt 3 cfg1.N
          (ix2 (⟨2048 * b.val + s.val, by have := b.isLt; have := s.isLt; omega⟩ : Fin 8192) o) := by
  have h4 : W3 m ρ c (Proc.devRef .tc main_v4) = (dat1 (F := Ideal) (V2 m ρ) c).arrAt 3 cfg1.N := W3_arr m ρ c 3
  have e : W4 m ρ c (Proc.devRef .tc main_v5)
      = shapeCast S4x2048x4096 ((dat1 (F := Ideal) (V2 m ρ) c).arrAt 3 cfg1.N) shapeCasts_S8192x4096_S4x2048x4096 := by
    show StableHlo.after hostOps2 (W3 m ρ c) (Proc.devRef .tc main_v5) = _
    after_results
    rw [h4]
    generalize (dat1 (F := Ideal) (V2 m ρ) c).arrAt 3 cfg1.N = X
    rfl
  rw [e]
  exact unflatten_apply _ b s o

end Cert.KernelIdeal.Stretch

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.Dequant.lean ====
/-
  The array the first region leaves is the weight matrix.

  The region walks 16 row blocks of 256 rows. At row block t it reads rows 256 t … 256 t + 255 of the code matrix, of the
  scales and of the left correction factor, and the whole right correction factor, and writes back rows
  256 t … 256 t + 255 of its result. Entry (p, i) of what it writes is

    (code (p, i) - 8) * scale (p, i / 128) + ∑ r < 32, U (p, r) * V (r, i),

  the codes read signed and exactly, every operation the extended reals' and every change of format the identity.
  The 16 row blocks are disjoint and fill the 4096 rows, so the result array is the weight matrix entry by entry.
-/
import proofs.«171439_j11579231830187_2_alg».proof.Defs
import proofs.«171439_j11579231830187_2_alg».proof.Proof.Gen.KernelIdeal.Frame
import proofs.«171439_j11579231830187_2_alg».proof.Proof.Spec
import proofs.«171439_j11579231830187_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Dequant

open Idealize.ShloMosaic Idealize.ShloMosaic.TcCoe Idealize.SL.Sem Idealize.ShloMosaic.ValueIdx
open Idealize.ShloMosaic.Pipeline (Dat)
open Cert.KernelIdeal Cert.KernelIdeal.Gen

/-! ## One entry of what the body computes -/

/-- Column `i`'s place inside its group of 128 consecutive columns. -/
def lane (i : Fin 4096) : Fin 128 := ⟨i.val % 128, Nat.mod_lt _ (by decide)⟩

/-- A row of 32 groups of 128 read flat: entry `(p, i)` of the flat view is entry `(p, i / 128, i % 128)`, the same
    row-major position. -/
theorem flat_of_groups {α : Type} (y : S256x32x128.Idx → α) (p : Fin 256) (i : Fin 4096) :
    shapeCast S256x4096 y shapeCasts_S256x32x128_S256x4096 (ix2 p i) = y (ix3 p (QuantLinear.group i) (lane i)) := by
  refine shapeCast_apply y shapeCasts_S256x32x128_S256x4096 (ix2 p i) (ix3 p (QuantLinear.group i) (lane i)) ?_
  rewrite [Shape.rowMajor_val_three, Shape.rowMajor_val_two]
  have hp := p.isLt
  have hi := i.isLt
  show (p.val * 32 + i.val / 128) * 128 + i.val % 128 = p.val * 4096 + i.val
  omega

/-- A flat row read in groups, at the group and place of column `i`: entry `(p, i / 128, i % 128)` of the grouped view
    is entry `(p, i)`. -/
theorem groups_of_flat {α : Type} (y : S256x4096.Idx → α) (p : Fin 256) (i : Fin 4096) :
    shapeCast S256x32x128 y shapeCasts_S256x4096_S256x32x128 (ix3 p (QuantLinear.group i) (lane i)) = y (ix2 p i) := by
  refine shapeCast_apply y shapeCasts_S256x4096_S256x32x128 (ix3 p (QuantLinear.group i) (lane i)) (ix2 p i) ?_
  rewrite [Shape.rowMajor_val_two, Shape.rowMajor_val_three]
  have hp := p.isLt
  have hi := i.isLt
  show p.val * 4096 + i.val = (p.val * 32 + i.val / 128) * 128 + i.val % 128
  omega

/-- The scales with a trailing axis of extent one: entry `(p, g, 0)` is scale `(p, g)`. -/
theorem scale_unit_axis {α : Type} (y : S256x32.Idx → α) (p : Fin 256) (g : Fin 32) (z : Fin 1) :
    shapeCast S256x32x1 y shapeCasts_S256x32_S256x32x1 (ix3 p g z) = y (ix2 p g) := by
  refine shapeCast_apply y shapeCasts_S256x32_S256x32x1 (ix3 p g z) (ix2 p g) ?_
  rewrite [Shape.rowMajor_val_two, Shape.rowMajor_val_three]
  have hz := z.isLt
  show p.val * 32 + g.val = (p.val * 32 + g.val) * 1 + z.val
  omega

/-- One scale spread along its group: entry `(p, g, l)` of the broadcast is entry `(p, g, 0)`. -/
theorem scale_along_group {α : Type} (y : S256x32x1.Idx → α) (p : Fin 256) (g : Fin 32) (l : Fin 128) :
    broadcastTo S256x32x128 y broadcasts_S256x32x1_S256x32x128 (ix3 p g l) = y (ix3 p g (0 : Fin 1)) := by
  refine broadcastTo_apply y broadcasts_S256x32x1_S256x32x128 (ix3 p g l) (ix3 p g (0 : Fin 1)) fun a => ?_
  match a with
  | ⟨0, _⟩ => show p.val = if (256 : Nat) = 1 then 0 else p.val; rw [if_neg (by decide)]
  | ⟨1, _⟩ => show g.val = if (32 : Nat) = 1 then 0 else g.val; rw [if_neg (by decide)]
  | ⟨2, _⟩ => show 0 = if (1 : Nat) = 1 then 0 else l.val; rw [if_pos rfl]

/-- The product's dimension numbers contract the left factor's columns against the right factor's rows: the plain
    256 × 32 by 32 × 4096 product. -/
theorem dims_plain : dot_S256x32_S32x4096_S256x4096_1_0_0_1_n_n = DotDims.plain 256 32 4096 := rfl

/-- ENTRY `(p, i)` OF THE BODY'S RESULT, from the four blocks it reads: the code less 8, times the scale of the
    column's group, plus the 32-term correction. The changes of format are the identity on extended reals; the two
    regroupings of a row keep the row-major position. -/
theorem payload_apply (x0 : Vec Ideal S256x4096 .i32) (x1 x2 : Vec Ideal S256x32 .f32) (x3 : Vec Ideal S32x4096 .f32)
    (p : Fin 256) (i : Fin 4096) :
    k0_pay1 (F := Ideal) x0 x1 x2 x3 (ix2 p i)
      = (FloatOps.sitofp (F := Ideal) .f32 (x0 (ix2 p i)) - Ideal.ofBits .f32 0x41000000#32) * x1 (ix2 p (QuantLinear.group i))
        + ∑ r : Fin 32, x2 (ix2 p r) * x3 (ix2 r i) := by
  unfold k0_pay1
  rw [truncf_apply, addf_apply, flat_of_groups, mulf_apply, groups_of_flat, subf_apply, sitofp_apply, broadcast_apply,
    scale_along_group, scale_unit_axis, dims_plain, matmul_plain_zero_apply]
  rfl

/-- The zero offsets of a whole-buffer access, as the constant function. -/
theorem hz : (![0, 0] : Fin 2 → Nat) = fun _ => 0 := funext fun a => by fin_cases a <;> rfl

/-- The body stores its result once, through the whole staging buffer, from whole-buffer loads: what it leaves is the
    payload of the four blocks. -/
theorem out_eq_payload (x0 : Vec Ideal S256x4096 .i32) (x1 x2 : Vec Ideal S256x32 .f32) (x3 : Vec Ideal S32x4096 .f32) :
    out0_4 (F := Ideal) x0 x1 x2 x3 = k0_pay1 (F := Ideal) x0 x1 x2 x3 := by
  unfold out0_4
  rw [View.canon_unit_zero hz]
  simp only [View.ld_unit_zero (S := S256x4096) hz, View.ld_unit_zero (S := S256x32) hz, View.ld_unit_zero (S := S32x4096) hz]

/-! ## The blocks the body reads, as rows of the arrays -/

variable (V : (c : Dev nD) → (b : Ref sig .tc) → Buf (Elt Ideal) ((c : Thread nD τ).loc b))

/-- Row `p` of row block `t` is row `256 t + p` of the array. -/
def row (t : Fin cfg0.N) (p : Fin 256) : Fin 4096 :=
  ⟨256 * t.val + p.val, by
    have hN : grid0.N = 16 := N_0
    have ht : t.val < grid0.N := t.isLt
    have hp := p.isLt
    omega⟩

/-- The block indices over the 16 row blocks: the codes, the scales, the left factor and the result move down one block
    of rows per point and never sideways; the right factor's one block never moves. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The block of codes at row block `t`: entry `(p, i)` is the code matrix at `(256 t + p, i)`. -/
theorem codes_block (c : Dev nD) (t : Fin cfg0.N) (p : Fin 256) (i : Fin 4096) :
    (iblk0 (F := Ideal) V c 0 t : Vec Ideal S256x4096 .i32) (ix2 p i)
      = (V c main_arg1 : S4096x4096.Idx → BitVec 32) (ix2 (row t p) i) := by
  obtain ⟨h0, h1, -⟩ := index_facts t
  unfold iblk0
  rw [View.read_apply]
  show V c main_arg1 _ = V c main_arg1 _
  congr 1
  funext a
  apply Fin.ext
  match a with
  | ⟨0, _⟩ => show win0_0.index t (0 : Fin 2) * 256 + 1 * p.val = 256 * t.val + p.val; rw [h0]; omega
  | ⟨1, _⟩ => show win0_0.index t (1 : Fin 2) * 4096 + 1 * i.val = i.val; rw [h1]; omega

/-- The block of scales at row block `t`: entry `(p, g)` is the scale at `(256 t + p, g)`. -/
theorem scales_block (c : Dev nD) (t : Fin cfg0.N) (p : Fin 256) (g : Fin 32) :
    (iblk0 (F := Ideal) V c 1 t : Vec Ideal S256x32 .f32) (ix2 p g)
      = (V c main_arg2 : S4096x32.Idx → EReal) (ix2 (row t p) g) := by
  obtain ⟨-, -, h0, h1, -⟩ := index_facts t
  unfold iblk0
  rw [View.read_apply]
  show V c main_arg2 _ = V c main_arg2 _
  congr 1
  funext a
  apply Fin.ext
  match a with
  | ⟨0, _⟩ => show win0_1.index t (0 : Fin 2) * 256 + 1 * p.val = 256 * t.val + p.val; rw [h0]; omega
  | ⟨1, _⟩ => show win0_1.index t (1 : Fin 2) * 32 + 1 * g.val = g.val; rw [h1]; omega

/-- The block of the left correction factor at row block `t`: entry `(p, r)` is the factor at `(256 t + p, r)`. -/
theorem left_block (c : Dev nD) (t : Fin cfg0.N) (p : Fin 256) (r : Fin 32) :
    (iblk0 (F := Ideal) V c 2 t : Vec Ideal S256x32 .f32) (ix2 p r)
      = (V c main_arg3 : S4096x32.Idx → EReal) (ix2 (row t p) r) := by
  obtain ⟨-, -, -, -, h0, h1, -⟩ := index_facts t
  unfold iblk0
  rw [View.read_apply]
  show V c main_arg3 _ = V c main_arg3 _
  congr 1
  funext a
  apply Fin.ext
  match a with
  | ⟨0, _⟩ => show win0_2.index t (0 : Fin 2) * 256 + 1 * p.val = 256 * t.val + p.val; rw [h0]; omega
  | ⟨1, _⟩ => show win0_2.index t (1 : Fin 2) * 32 + 1 * r.val = r.val; rw [h1]; omega

/-- The right correction factor's one block is the whole factor at every point. -/
theorem right_block (c : Dev nD) (t : Fin cfg0.N) (r : Fin 32) (i : Fin 4096) :
    (iblk0 (F := Ideal) V c 3 t : Vec Ideal S32x4096 .f32) (ix2 r i)
      = (V c main_arg4 : S32x4096.Idx → EReal) (ix2 r i) := by
  obtain ⟨-, -, -, -, -, -, h0, h1, -⟩ := index_facts t
  unfold iblk0
  rw [View.read_apply]
  show V c main_arg4 _ = V c main_arg4 _
  congr 1
  funext a
  apply Fin.ext
  match a with
  | ⟨0, _⟩ => show win0_3.index t (0 : Fin 2) * 32 + 1 * r.val = r.val; rw [h0]; omega
  | ⟨1, _⟩ => show win0_3.index t (1 : Fin 2) * 4096 + 1 * i.val = i.val; rw [h1]; omega

/-- Entry `(p, i)` of the result's block at row block `t` sits in the result array at `(256 t + p, i)`. -/
theorem result_block (t : Fin cfg0.N) (p : Fin 256) (i : Fin 4096) :
    (((cfg0.win 4).blk t).view.emb (ix2 p i) : S4096x4096.Idx) = ix2 (row t p) i := by
  obtain ⟨-, -, -, -, -, -, -, -, h0, h1⟩ := index_facts t
  funext a
  apply Fin.ext
  match a with
  | ⟨0, _⟩ => show win0_4.index t (0 : Fin 2) * 256 + 1 * p.val = 256 * t.val + p.val; rw [h0]; omega
  | ⟨1, _⟩ => show win0_4.index t (1 : Fin 2) * 4096 + 1 * i.val = i.val; rw [h1]; omega

/-! ## From the row blocks to the array -/

/-- WHAT ROW BLOCK `t` WRITES BACK is its 256 rows of the weight matrix of the arrays as the region finds them. -/
theorem flushed_eq (c : Dev nD) (t : Fin cfg0.N) :
    (dat0 (F := Ideal) V c).flushed 4 t
      = ((cfg0.win 4).blk t).view.read (Elt Ideal)
          (QuantLinear.weight (V c main_arg1) (V c main_arg2) (V c main_arg3) (V c main_arg4)) := by
  show (cfg0.win 4).cut (grid0.coords t) ((dat0 V c).after 4 t) = _
  rw [after0_4, out_eq_payload]
  funext y
  obtain ⟨p, i, rfl⟩ : ∃ (p : Fin 256) (i : Fin 4096), y = ix2 p i := ⟨y 0, y 1, eq_ix2 y⟩
  rw [View.read_apply]
  show k0_pay1 (F := Ideal) (iblk0 V c 0 t) (iblk0 V c 1 t) (iblk0 V c 2 t) (iblk0 V c 3 t) (ix2 p i)
    = QuantLinear.weight (V c main_arg1) (V c main_arg2) (V c main_arg3) (V c main_arg4) (((cfg0.win 4).blk t).view.emb (ix2 p i))
  refine (payload_apply (iblk0 V c 0 t) (iblk0 V c 1 t) (iblk0 V c 2 t) (iblk0 V c 3 t) p i).trans ?_
  rw [result_block t p i, codes_block V c t p i, scales_block V c t p (QuantLinear.group i)]
  simp only [left_block V c t p, right_block V c t]
  rfl

/-- An entry of the result array is in row block `t`'s block iff each coordinate is in the block's range on its axis. -/
theorem mem_block (t : Fin cfg0.N) (i : S4096x4096.Idx) :
    i ∈ ((cfg0.win 4).blk t).view.set
      ↔ ∀ a : Fin 2, win0_4.index t a * S256x4096.size a ≤ (i a).val
          ∧ (i a).val < win0_4.index t a * S256x4096.size a + S256x4096.size a := by
  show i ∈ ((View.whole main_v0).slice (win0_4.rect t)).set ↔ _
  rw [View.set_slice_whole, Rect.mem_set_unit]
  exact Iff.rfl

/-- Every entry is written: row `r` belongs to row block `r / 256`, and every row block is written back. -/
theorem cover (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  have hN : grid0.N = 16 := N_0
  obtain ⟨t, ht⟩ : ∃ t : Fin cfg0.N, t.val = (i 0).val / 256 := ⟨⟨(i 0).val / 256, by show _ < grid0.N; omega⟩, rfl⟩
  obtain ⟨-, -, -, -, -, -, -, -, h0, h1⟩ := index_facts t
  refine ⟨t, flush0_4 t, ?_⟩
  rw [mem_block]
  intro a
  match a with
  | ⟨0, _⟩ =>
    show win0_4.index t (0 : Fin 2) * 256 ≤ (i 0).val ∧ (i 0).val < win0_4.index t (0 : Fin 2) * 256 + 256
    rw [h0, ht]; omega
  | ⟨1, _⟩ =>
    show win0_4.index t (1 : Fin 2) * 4096 ≤ (i 1).val ∧ (i 1).val < win0_4.index t (1 : Fin 2) * 4096 + 4096
    rw [h1]; omega

/-- Whatever the arrays hold when the region is entered, it leaves in its result array the weight matrix of them. -/
theorem weight_array (c : Dev nD) :
    (dat0 (F := Ideal) V c).arrAt 4 cfg0.N
      = QuantLinear.weight (V c main_arg1) (V c main_arg2) (V c main_arg3) (V c main_arg4) :=
  (dat0 (F := Ideal) V c).arrAt_eq_of_cover 4
    (QuantLinear.weight (V c main_arg1) (V c main_arg2) (V c main_arg3) (V c main_arg4))
    (fun t _ => flushed_eq V c t) cover

end Cert.KernelIdeal.Dequant

end
-- ==== Proof.BlockSum.lean ====
/-
  A sum of 4096 terms, taken whole, equals the same terms taken in four consecutive blocks of 1024, the blocks added
  in order starting from zero. The law holds in every commutative additive monoid: only associativity and the
  neutral element are used, so it holds on the extended reals with no finiteness of the terms.

  The proof passes through sums over ranges of natural numbers: a function on `Fin 4096` is extended by zero to all
  naturals, the range of 4096 is cut as 1024 + 1024 + 1024 + 1024, and each piece is read back as a sum over
  `Fin 1024` at the block's offset `1024 * a`.
-/
import proofs.«171439_j11579231830187_2_alg».proof.Proof.Spec
import Mathlib.Algebra.BigOperators.Fin
import Mathlib.Algebra.BigOperators.Intervals

open scoped BigOperators

namespace QuantLinear

/-- A function on `Fin 4096` extended by zero to every natural number. -/
private def ext0 {M : Type*} [Zero M] (g : Fin 4096 → M) (k : ℕ) : M :=
  if h : k < 4096 then g ⟨k, h⟩ else 0

/-- The extension agrees with the function at every index below 4096. -/
private theorem ext0_val {M : Type*} [Zero M] (g : Fin 4096 → M) (k : Fin 4096) : ext0 g k.val = g k := by
  unfold ext0
  rw [dif_pos k.isLt]

/-- Block `a`, whose terms sit at `1024 * a + c`, is the sum of the extension over the 1024 naturals from offset `n = 1024 * a`. -/
private theorem sum_blk {M : Type*} [AddCommMonoid M] (g : Fin 4096 → M) (a : Fin 4) (n : ℕ) (hn : n = 1024 * a.val) :
    ∑ c : Fin 1024, g (blk a c) = ∑ c ∈ Finset.range 1024, ext0 g (n + c) := by
  subst hn
  rw [← Fin.sum_univ_eq_sum_range (fun c => ext0 g (1024 * a.val + c)) 1024]
  exact Finset.sum_congr rfl fun c _ => (ext0_val g (blk a c)).symm

/-- A sum of 4096 terms is zero plus its four consecutive blocks of 1024 terms, added in order. -/
theorem sum_blocks {M : Type*} [AddCommMonoid M] (g : Fin 4096 → M) :
    ∑ k : Fin 4096, g k
      = (((0 + ∑ c : Fin 1024, g (blk 0 c)) + ∑ c : Fin 1024, g (blk 1 c)) + ∑ c : Fin 1024, g (blk 2 c))
          + ∑ c : Fin 1024, g (blk 3 c) := by
  have hw : ∑ k : Fin 4096, g k = ∑ k ∈ Finset.range (1024 + 1024 + 1024 + 1024), ext0 g k := by
    rw [show (1024 + 1024 + 1024 + 1024 : ℕ) = 4096 from rfl, ← Fin.sum_univ_eq_sum_range (ext0 g) 4096]
    exact Finset.sum_congr rfl fun k _ => (ext0_val g k).symm
  rw [hw, Finset.sum_range_add, Finset.sum_range_add, Finset.sum_range_add,
    sum_blk g 0 0 (by decide), sum_blk g 1 1024 (by decide), sum_blk g 2 (1024 + 1024) (by decide),
    sum_blk g 3 (1024 + 1024 + 1024) (by decide)]
  simp only [zero_add]

end QuantLinear
-- ==== Proof.ProductEntry.lean ====
/-
  The second region's three block values read at one entry, on the extended reals.

  Within a block, (a, b) is row a of 1024 and column b of 2048. The zero block is 0 there. Adding the product adds
  ∑ c < 1024, x (a, c) * w (b, c): the input block's row a against the weight block's row b, both contracted on their
  second axis. Adding the bias adds the bias row's entry at column b, the same for every row a.
-/
import proofs.«171439_j11579231830187_2_alg».proof.Proof.Gen.KernelIdeal
import proofs.«171439_j11579231830187_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Product

open Idealize.ShloMosaic Idealize.ShloMosaic.ValueIdx
open Cert.KernelIdeal Cert.KernelIdeal.Gen

/-- The zero block is zero at every entry. -/
theorem zero_entry (j : S1024x2048.Idx) : k1_pay1 (F := Ideal) j = 0 := by
  unfold k1_pay1
  exact Ideal.ofBits_zero_f32

/-- The left operand is read at the output's row. -/
theorem product_lhs_row (j : S1024x2048.Idx) (q : dot_S1024x1024_S2048x1024_S1024x2048_1_1_0_0_n_n.contr.Idx) :
    (dot_S1024x1024_S2048x1024_S1024x2048_1_1_0_0_n_n.lhsIdx j q 0).val = (j 0).val := by
  unfold DotDims.lhsIdx
  rw [dif_neg (show ¬(0 : Fin S1024x1024.rank) ∈ dot_S1024x1024_S2048x1024_S1024x2048_1_1_0_0_n_n.lhsBatch by decide), dif_pos (show (0 : Fin S1024x1024.rank) ∈ dot_S1024x1024_S2048x1024_S1024x2048_1_1_0_0_n_n.lhsNonContracting by decide)]
  rfl

/-- The right operand's row is the output's column. -/
theorem product_rhs_row (j : S1024x2048.Idx) (q : dot_S1024x1024_S2048x1024_S1024x2048_1_1_0_0_n_n.contr.Idx) :
    (dot_S1024x1024_S2048x1024_S1024x2048_1_1_0_0_n_n.rhsIdx j q 0).val = (j 1).val := by
  unfold DotDims.rhsIdx
  rw [dif_neg (show ¬(0 : Fin S2048x1024.rank) ∈ dot_S1024x1024_S2048x1024_S1024x2048_1_1_0_0_n_n.rhsBatch by decide), dif_pos (show (0 : Fin S2048x1024.rank) ∈ dot_S1024x1024_S2048x1024_S1024x2048_1_1_0_0_n_n.rhsNonContracting by decide)]
  rfl

/-- The product of a [1024,1024] block and a [2048,1024] block over their second axes, into the zero block, read at
    (a, b): the sum over the contracted coordinate of the two rows' products. -/
theorem product_entry (x0 : FVec Ideal S1024x1024 .bf16) (x1 : FVec Ideal S2048x1024 .bf16) (a : Fin 1024) (b : Fin 2048) :
    matmul (F := Ideal) dot_S1024x1024_S2048x1024_S1024x2048_1_1_0_0_n_n none x0 x1 (constant (F := Ideal) S1024x2048 .f32 0x00000000#32) (ix2 a b)
      = (∑ k : Fin 1024, x0 (ix2 a k) * x1 (ix2 b k) : EReal) := by
  show FloatOps.matmul (F := Ideal) dot_S1024x1024_S2048x1024_S1024x2048_1_1_0_0_n_n none x0 x1 (constant (F := Ideal) S1024x2048 .f32 0x00000000#32) (ix2 a b) = _
  rw [Ideal.matmul_constant_zero_apply, ← Equiv.sum_comp (contrEquiv1 dot_S1024x1024_S2048x1024_S1024x2048_1_1_0_0_n_n 1024 rfl rfl).symm]
  refine Finset.sum_congr rfl fun k _ => ?_
  have hk := contrEquiv1_symm_val dot_S1024x1024_S2048x1024_S1024x2048_1_1_0_0_n_n 1024 rfl rfl k
  have el : dot_S1024x1024_S2048x1024_S1024x2048_1_1_0_0_n_n.lhsIdx (ix2 a b) ((contrEquiv1 dot_S1024x1024_S2048x1024_S1024x2048_1_1_0_0_n_n 1024 rfl rfl).symm k) = ix2 a k := funext fun ax => Fin.ext (by
    match ax with
    | ⟨0, _⟩ => exact product_lhs_row _ _
    | ⟨1, _⟩ => exact (dot_S1024x1024_S2048x1024_S1024x2048_1_1_0_0_n_n.lhsIdx_val_of_single rfl _ _).trans hk)
  have er : dot_S1024x1024_S2048x1024_S1024x2048_1_1_0_0_n_n.rhsIdx (ix2 a b) ((contrEquiv1 dot_S1024x1024_S2048x1024_S1024x2048_1_1_0_0_n_n 1024 rfl rfl).symm k) = ix2 b k := funext fun ax => Fin.ext (by
    match ax with
    | ⟨0, _⟩ => exact product_rhs_row _ _
    | ⟨1, _⟩ => exact (dot_S1024x1024_S2048x1024_S1024x2048_1_1_0_0_n_n.rhsIdx_val_of_single rfl _ _).trans hk)
  rw [el, er]

/-- Adding the product: at (a, b) the old value plus the sum of the two rows' products. -/
theorem add_product_entry (x0 : Vec Ideal S1024x1024 .bf16) (x1 : Vec Ideal S2048x1024 .bf16) (xo : Vec Ideal S1024x2048 .f32)
    (a : Fin 1024) (b : Fin 2048) :
    k1_pay2 (F := Ideal) x0 x1 xo (ix2 a b) = (xo (ix2 a b) + ∑ k : Fin 1024, x0 (ix2 a k) * x1 (ix2 b k) : EReal) := by
  unfold k1_pay2
  rw [shapeCast_self, shapeCast_self, shapeCast_self, addf_apply]
  exact congrArg (xo (ix2 a b) + ·) (product_entry x0 x1 a b)

/-- Adding the bias: at (a, b) the old value plus the bias row at b. -/
theorem add_bias_entry (x2 : Vec Ideal S1x2048 .f32) (y : Vec Ideal S1024x2048 .f32) (a : Fin 1024) (b : Fin 2048) :
    k1_pay3 (F := Ideal) x2 y (ix2 a b) = y (ix2 a b) + x2 (ix2 (0 : Fin 1) b) := by
  unfold k1_pay3
  rw [shapeCast_self, shapeCast_self, shapeCast_self, addf_apply, broadcastTo_1b_ab_apply]

end Cert.KernelIdeal.Product

end
-- ==== Proof.ProductPieces.lean ====
/-
  What the second kernel region's body leaves in its output block, case by case.

  The body runs at a grid point (i, j, k), k the position along the contracted axis. It first zeroes the output block
  when k = 0; then adds to the block the product of the input block and the weight block; and, when k = 3, adds the
  bias row to every row of the block. So there are three cases. In each the block ends at a whole-block store whose
  value is a pure function of what the body loaded:
    first  k (k = 0):      add_product x w zero            — the block was just zeroed, nothing older is read;
    middle k (k = 1, 2):   add_product x w old             — `old` what the point before left in the block;
    last   k (k = 3):      add_bias b (add_product x w old).
  Here `add_product` is the generated payload `k1_pay2`, `add_bias` is `k1_pay3` and `zero` is `k1_pay1`.
-/
import proofs.«171439_j11579231830187_2_alg».proof.Defs
import proofs.«171439_j11579231830187_2_alg».proof.Proof.Gen.KernelIdeal.Frame
import Idealize.ShloMosaic.Lib.Pipeline.Value
import Idealize.ShloMosaic.Lib.Tactic

set_option maxRecDepth 16384

noncomputable section

namespace Cert.KernelIdeal.Product

open Idealize.ShloMosaic Idealize.ShloMosaic.TcCoe Idealize.SL.Sem
open Idealize.ShloMosaic.Pipeline (Dat)
open Cert.KernelIdeal Cert.KernelIdeal.Gen

variable {F : FTy → Type} [FloatOps F]

/-- A whole block's rectangle starts at the origin. -/
theorem origin2 : (![0, 0] : Fin 2 → Nat) = fun _ => 0 := funext fun a => by fin_cases a <;> rfl

/-- A middle point: the block ends at what it held plus the product of the two input blocks. -/
theorem middle_piece (c : Dev nD) (i : grid1.Coords) (a3 : Memref sig .tc .vmem S1024x1024 .bf16) (h3 : a3.IsWhole)
    (a4 : Memref sig .tc .vmem S2048x1024 .bf16) (h4 : a4.IsWhole) (a5 : Memref sig .tc .vmem S1x2048 .f32) (h5 : a5.IsWhole)
    (a6 : Memref sig .tc .vmem S1024x2048 .f32) (h6 : a6.IsWhole) (hc0 : ¬cond1_0 i) (hc1 : ¬cond1_1 i)
    (x0 : Vec F S1024x1024 .bf16) (x1 : Vec F S2048x1024 .bf16) (x2 : Vec F S1x2048 .f32) (xo : Vec F S1024x2048 .f32) :
    out1_B_3 c i a3 h3 a4 h4 a5 h5 a6 h6 hc0 hc1 x0 x1 x2 xo = k1_pay2 x0 x1 xo := by
  unfold out1_B_3
  rw [View.read_writes_eq_canon _ _ _ (cover1_B_3 c i a3 h3 a4 h4 a5 h5 a6 h6 hc0 hc1 x0 x1 x2 xo)]
  unfold kernelRun1_B
  dsimp only
  rw [View.canon_unit_zero origin2]
  simp only [View.readAt_eq_ld, h3.read_unread, h4.read_unread, h6.read_unread,
    View.ld_unit_zero (S := S1024x1024) origin2, View.ld_unit_zero (S := S2048x1024) origin2,
    View.ld_unit_zero (S := S1024x2048) origin2]

/-- The first point along the contracted axis: the block is zeroed, then the product is added to that zero block. -/
theorem first_piece (c : Dev nD) (i : grid1.Coords) (a3 : Memref sig .tc .vmem S1024x1024 .bf16) (h3 : a3.IsWhole)
    (a4 : Memref sig .tc .vmem S2048x1024 .bf16) (h4 : a4.IsWhole) (a5 : Memref sig .tc .vmem S1x2048 .f32) (h5 : a5.IsWhole)
    (a6 : Memref sig .tc .vmem S1024x2048 .f32) (h6 : a6.IsWhole) (hc0 : cond1_0 i) (hc1 : ¬cond1_1 i)
    (x0 : Vec F S1024x1024 .bf16) (x1 : Vec F S2048x1024 .bf16) (x2 : Vec F S1x2048 .f32) :
    out1_A_3 c i a3 h3 a4 h4 a5 h5 a6 h6 hc0 hc1 x0 x1 x2 = k1_pay2 x0 x1 k1_pay1 := by
  unfold out1_A_3
  rw [View.read_writes_eq_canon _ _ _ (cover1_A_3 c i a3 h3 a4 h4 a5 h5 a6 h6 hc0 hc1 x0 x1 x2)]
  unfold kernelRun1_A
  dsimp only
  sl_unfold_words
  rw [View.canon_cons_unit_zero (S := S1024x2048) origin2, View.readCov_unit_zero (S := S1024x2048) _ origin2]
  simp only [View.readAt_eq_ld, h3.read_unread, h4.read_unread,
    View.ld_unit_zero (S := S1024x1024) origin2, View.ld_unit_zero (S := S2048x1024) origin2,
    View.ld_unit_zero (S := S1024x2048) origin2]

/-- The last point along the contracted axis: the product is added to what the block held, then the bias row to that. -/
theorem last_piece (c : Dev nD) (i : grid1.Coords) (a3 : Memref sig .tc .vmem S1024x1024 .bf16) (h3 : a3.IsWhole)
    (a4 : Memref sig .tc .vmem S2048x1024 .bf16) (h4 : a4.IsWhole) (a5 : Memref sig .tc .vmem S1x2048 .f32) (h5 : a5.IsWhole)
    (a6 : Memref sig .tc .vmem S1024x2048 .f32) (h6 : a6.IsWhole) (hc0 : ¬cond1_0 i) (hc1 : cond1_1 i)
    (x0 : Vec F S1024x1024 .bf16) (x1 : Vec F S2048x1024 .bf16) (x2 : Vec F S1x2048 .f32) (xo : Vec F S1024x2048 .f32) :
    out1_C_3 c i a3 h3 a4 h4 a5 h5 a6 h6 hc0 hc1 x0 x1 x2 xo = k1_pay3 x2 (k1_pay2 x0 x1 xo) := by
  unfold out1_C_3
  rw [View.read_writes_eq_canon _ _ _ (cover1_C_3 c i a3 h3 a4 h4 a5 h5 a6 h6 hc0 hc1 x0 x1 x2 xo)]
  unfold kernelRun1_C
  dsimp only
  sl_unfold_words
  rw [View.canon_cons_unit_zero (S := S1024x2048) origin2, View.readCov_unit_zero (S := S1024x2048) _ origin2]
  simp only [View.readAt_eq_ld, h3.read_unread, h4.read_unread, h5.read_unread, h6.read_unread,
    View.ld_unit_zero (S := S1024x1024) origin2, View.ld_unit_zero (S := S2048x1024) origin2,
    View.ld_unit_zero (S := S1x2048) origin2, View.ld_unit_zero (S := S1024x2048) origin2]

end Cert.KernelIdeal.Product

end
-- ==== Proof.ProductPoints.lean ====
/-
  The second region's output block after each grid point, as block values.

  Grid points are numbered t = 0 … 63 in the order they run; t % 4 is the position k along the contracted axis. After
  a point with k = 0 the block holds the product added to the zero block; after a point with k = 1 or 2 it holds the
  product added to what the point before left; after a point with k = 3 it holds that and then the bias.
-/
import proofs.«171439_j11579231830187_2_alg».proof.Defs
import proofs.«171439_j11579231830187_2_alg».proof.Proof.Gen.KernelIdeal.Frame
import proofs.«171439_j11579231830187_2_alg».proof.Proof.ProductPieces

set_option maxRecDepth 16384

noncomputable section

namespace Cert.KernelIdeal.Product

open Idealize.ShloMosaic Idealize.ShloMosaic.TcCoe Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

/-- After a point at the start of the contracted axis: the product of the point's two input blocks, added to zero. -/
theorem at_first (c : Dev nD) (t : Fin cfg1.N) (h0 : t.val % 4 = 0) :
    outsAt1 V c t.val t.isLt = k1_pay2 (iblk1 V c 0 t) (iblk1 V c 1 t) k1_pay1 := by
  rw [outsAt1_A V c t h0 (by omega)]
  exact first_piece c (grid1.coords t) (ms1_0 t) (hs1_0 t) (ms1_1 t) (hs1_1 t) (ms1_2 t) (hs1_2 t) (ms1_3 t) (hs1_3 t) _ _ (iblk1 V c 0 t) (iblk1 V c 1 t) (iblk1 V c 2 t)

/-- After a point in the middle of the contracted axis: the product added to what the point before left. -/
theorem at_middle (c : Dev nD) (t : Fin cfg1.N) (h0 : ¬t.val % 4 = 0) (h1 : ¬t.val % 4 = 3) :
    outsAt1 V c t.val t.isLt
      = k1_pay2 (iblk1 V c 0 t) (iblk1 V c 1 t) (outsAt1 V c (t.val - 1) (Nat.lt_of_le_of_lt (Nat.sub_le _ _) t.isLt)) := by
  rw [outsAt1_B V c t h0 h1]
  exact middle_piece c (grid1.coords t) (ms1_0 t) (hs1_0 t) (ms1_1 t) (hs1_1 t) (ms1_2 t) (hs1_2 t) (ms1_3 t) (hs1_3 t) _ _ (iblk1 V c 0 t) (iblk1 V c 1 t) (iblk1 V c 2 t) _

/-- After a point at the end of the contracted axis: the product added to what the point before left, then the bias. -/
theorem at_last (c : Dev nD) (t : Fin cfg1.N) (h0 : ¬t.val % 4 = 0) (h1 : t.val % 4 = 3) :
    outsAt1 V c t.val t.isLt
      = k1_pay3 (iblk1 V c 2 t)
          (k1_pay2 (iblk1 V c 0 t) (iblk1 V c 1 t) (outsAt1 V c (t.val - 1) (Nat.lt_of_le_of_lt (Nat.sub_le _ _) t.isLt))) := by
  rw [outsAt1_C V c t h0 h1]
  exact last_piece c (grid1.coords t) (ms1_0 t) (hs1_0 t) (ms1_1 t) (hs1_1 t) (ms1_2 t) (hs1_2 t) (ms1_3 t) (hs1_3 t) _ _ (iblk1 V c 0 t) (iblk1 V c 1 t) (iblk1 V c 2 t) _

end Cert.KernelIdeal.Product

end
-- ==== Proof.ProductBlocks.lean ====
/-
  The second kernel region leaves, in its result array, the layer on the flattened batch.

  The 64 grid points run in the order t = 0 … 63; point t works on row block t / 8 (1024 rows of the input), column
  block t / 4 % 2 (2048 rows of the weight, which are output columns) and position t % 4 along the contracted axis
  (1024 of the 4096 contracted coordinates). The output block of (row block, column block) is written back once, after
  the point with position 3. By then it holds, at local entry (a, b),
    ((((0 + S 0) + S 1) + S 2) + S 3) + bias,
  S d the sum over the d-th block of 1024 contracted coordinates of input row times weight row. The four blocks in that
  order from zero are the whole sum over 4096 coordinates, so the written block is the restriction of the layer `out2`
  to the block's rows and columns; the written blocks cover the array.
-/
import proofs.«171439_j11579231830187_2_alg».proof.Defs
import proofs.«171439_j11579231830187_2_alg».proof.Proof.Gen.KernelIdeal.Frame
import proofs.«171439_j11579231830187_2_alg».proof.Proof.Spec
import proofs.«171439_j11579231830187_2_alg».proof.Proof.BlockSum
import proofs.«171439_j11579231830187_2_alg».proof.Proof.ProductEntry
import proofs.«171439_j11579231830187_2_alg».proof.Proof.ProductPoints
import Idealize.ShloMosaic.Lib.Pipeline.Value
import Idealize.ShloMosaic.Lib.ValueIdx

set_option maxRecDepth 16384

noncomputable section

open scoped BigOperators

namespace Cert.KernelIdeal.Product

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The four windows' block indices at every grid point, decided once over the grid: the input's block is
    (t / 8, t % 4), the weight's (t / 4 % 2, t % 4), the bias row's (0, t / 4 % 2), the output's (t / 8, t / 4 % 2). -/
theorem block_indices : ∀ t : Fin cfg1.N,
    win1_0.index t (0 : Fin 2) = t.val / 8 ∧ win1_0.index t (1 : Fin 2) = t.val % 4
    ∧ win1_1.index t (0 : Fin 2) = t.val / 4 % 2 ∧ win1_1.index t (1 : Fin 2) = t.val % 4
    ∧ win1_2.index t (0 : Fin 2) = 0 ∧ win1_2.index t (1 : Fin 2) = t.val / 4 % 2
    ∧ win1_3.index t (0 : Fin 2) = t.val / 8 ∧ win1_3.index t (1 : Fin 2) = t.val / 4 % 2 :=
  (by decide +kernel : ∀ t : Fin grid1.N, _)

/-- There are 64 grid points. -/
theorem point_lt (t : Fin cfg1.N) : t.val < 64 := lt_of_lt_of_eq t.isLt N_1

/-- The array row that local row `a` of point `t`'s row block is. -/
def rowOf (t : Fin cfg1.N) (a : Fin 1024) : Fin 8192 :=
  ⟨1024 * (t.val / 8) + a.val, by have := point_lt t; have := a.isLt; omega⟩

/-- The array column that local column `b` of point `t`'s column block is. -/
def colOf (t : Fin cfg1.N) (b : Fin 2048) : Fin 4096 :=
  ⟨2048 * (t.val / 4 % 2) + b.val, by have := b.isLt; omega⟩

variable (c : Dev nD) (X : S8192x4096.Idx → EReal) (W : S4096x4096.Idx → EReal) (B : S1x4096.Idx → EReal)
  (hX : V c main_v2 = X) (hW : V c main_v0 = W) (hB : V c main_v3 = B)
include hX hW hB

/-- The input block at a point reads the flattened input at the block's rows and its 1024 contracted coordinates. -/
theorem input_block (t : Fin cfg1.N) (a k : Fin 1024) (r : Fin 8192) (kk : Fin 4096)
    (hr : r.val = 1024 * (t.val / 8) + a.val) (hk : kk.val = 1024 * (t.val % 4) + k.val) :
    (iblk1 V c 0 t : Vec Ideal S1024x1024 .bf16) (ix2 a k) = X (ix2 r kk) := by
  subst hX
  obtain ⟨e0, e1, -⟩ := block_indices t
  unfold iblk1
  rw [View.read_apply]
  show V c main_v2 _ = V c main_v2 _
  refine congrArg (V c main_v2) (funext fun ax => Fin.ext ?_)
  match ax with
  | ⟨0, _⟩ => show win1_0.index t (0 : Fin 2) * 1024 + 1 * a.val = r.val; rw [e0, hr]; omega
  | ⟨1, _⟩ => show win1_0.index t (1 : Fin 2) * 1024 + 1 * k.val = kk.val; rw [e1, hk]; omega

/-- The weight block at a point reads the weight at the block's rows and the same 1024 contracted coordinates. -/
theorem weight_block (t : Fin cfg1.N) (b : Fin 2048) (k : Fin 1024) (o : Fin 4096) (kk : Fin 4096)
    (ho : o.val = 2048 * (t.val / 4 % 2) + b.val) (hk : kk.val = 1024 * (t.val % 4) + k.val) :
    (iblk1 V c 1 t : Vec Ideal S2048x1024 .bf16) (ix2 b k) = W (ix2 o kk) := by
  subst hW
  obtain ⟨-, -, e2, e3, -⟩ := block_indices t
  unfold iblk1
  rw [View.read_apply]
  show V c main_v0 _ = V c main_v0 _
  refine congrArg (V c main_v0) (funext fun ax => Fin.ext ?_)
  match ax with
  | ⟨0, _⟩ => show win1_1.index t (0 : Fin 2) * 2048 + 1 * b.val = o.val; rw [e2, ho]; omega
  | ⟨1, _⟩ => show win1_1.index t (1 : Fin 2) * 1024 + 1 * k.val = kk.val; rw [e3, hk]; omega

/-- The bias block at a point reads the bias row at the block's columns. -/
theorem bias_block (t : Fin cfg1.N) (b : Fin 2048) (o : Fin 4096) (ho : o.val = 2048 * (t.val / 4 % 2) + b.val) :
    (iblk1 V c 2 t : Vec Ideal S1x2048 .f32) (ix2 (0 : Fin 1) b) = B (ix2 (0 : Fin 1) o) := by
  subst hB
  obtain ⟨-, -, -, -, e4, e5, -⟩ := block_indices t
  unfold iblk1
  rw [View.read_apply]
  show V c main_v3 _ = V c main_v3 _
  refine congrArg (V c main_v3) (funext fun ax => Fin.ext ?_)
  match ax with
  | ⟨0, _⟩ => show win1_2.index t (0 : Fin 2) * 1 + 1 * 0 = 0; rw [e4]
  | ⟨1, _⟩ => show win1_2.index t (1 : Fin 2) * 2048 + 1 * b.val = o.val; rw [e5, ho]; omega

/-- The product of a point's two input blocks at (a, b) is block `d` of the long sum at the array's (r, o), `d` the
    point's position along the contracted axis. -/
theorem product_block (t : Fin cfg1.N) (d : Fin 4) (hd : t.val % 4 = d.val) (a : Fin 1024) (b : Fin 2048)
    (r : Fin 8192) (o : Fin 4096) (hr : r.val = 1024 * (t.val / 8) + a.val) (ho : o.val = 2048 * (t.val / 4 % 2) + b.val)
    (x0 : Vec Ideal S1024x1024 .bf16) (x1 : Vec Ideal S2048x1024 .bf16) (h0 : x0 = iblk1 V c 0 t) (h1 : x1 = iblk1 V c 1 t) :
    (∑ k : Fin 1024, x0 (ix2 a k) * x1 (ix2 b k) : EReal)
      = ∑ k : Fin 1024, X (ix2 r (QuantLinear.blk d k)) * W (ix2 o (QuantLinear.blk d k)) := by
  subst h0 h1
  refine Finset.sum_congr rfl fun k _ => ?_
  rw [input_block V c X W B hX hW hB t a k r (QuantLinear.blk d k) hr (by show 1024 * d.val + k.val = _; rw [hd]),
    weight_block V c X W B hX hW hB t b k o (QuantLinear.blk d k) ho (by show 1024 * d.val + k.val = _; rw [hd])]

/-- After the last point of a block's four, the block is the layer restricted to the block's rows and columns. -/
theorem flush_entry (t : Fin cfg1.N) (h3 : t.val % 4 = 3) (a : Fin 1024) (b : Fin 2048) :
    (outsAt1 V c t.val t.isLt : Vec Ideal S1024x2048 .f32) (ix2 a b)
      = QuantLinear.out2 X W B (ix2 (rowOf t a) (colOf t b)) := by
  have h64 := point_lt t
  have l1 : t.val - 1 < cfg1.N := Nat.lt_of_le_of_lt (Nat.sub_le _ _) t.isLt
  have l2 : t.val - 1 - 1 < cfg1.N := Nat.lt_of_le_of_lt (Nat.sub_le _ _) l1
  have l3 : t.val - 1 - 1 - 1 < cfg1.N := Nat.lt_of_le_of_lt (Nat.sub_le _ _) l2
  have e3 := at_last V c t (by omega) h3
  have e2 : outsAt1 V c (t.val - 1) l1
      = k1_pay2 (iblk1 V c 0 ⟨t.val - 1, l1⟩) (iblk1 V c 1 ⟨t.val - 1, l1⟩) (outsAt1 V c (t.val - 1 - 1) l2) :=
    at_middle V c ⟨t.val - 1, l1⟩ (by show ¬(t.val - 1) % 4 = 0; omega) (by show ¬(t.val - 1) % 4 = 3; omega)
  have e1 : outsAt1 V c (t.val - 1 - 1) l2
      = k1_pay2 (iblk1 V c 0 ⟨t.val - 1 - 1, l2⟩) (iblk1 V c 1 ⟨t.val - 1 - 1, l2⟩) (outsAt1 V c (t.val - 1 - 1 - 1) l3) :=
    at_middle V c ⟨t.val - 1 - 1, l2⟩ (by show ¬(t.val - 1 - 1) % 4 = 0; omega) (by show ¬(t.val - 1 - 1) % 4 = 3; omega)
  have e0 : outsAt1 V c (t.val - 1 - 1 - 1) l3
      = k1_pay2 (iblk1 V c 0 ⟨t.val - 1 - 1 - 1, l3⟩) (iblk1 V c 1 ⟨t.val - 1 - 1 - 1, l3⟩) (k1_pay1 (F := Ideal)) :=
    at_first V c ⟨t.val - 1 - 1 - 1, l3⟩ (by show (t.val - 1 - 1 - 1) % 4 = 0; omega)
  rw [e3, add_bias_entry (iblk1 V c 2 t) _ a b, add_product_entry (iblk1 V c 0 t) (iblk1 V c 1 t) _ a b,
    e2, add_product_entry (iblk1 V c 0 ⟨t.val - 1, l1⟩) (iblk1 V c 1 ⟨t.val - 1, l1⟩) _ a b,
    e1, add_product_entry (iblk1 V c 0 ⟨t.val - 1 - 1, l2⟩) (iblk1 V c 1 ⟨t.val - 1 - 1, l2⟩) _ a b,
    e0, add_product_entry (iblk1 V c 0 ⟨t.val - 1 - 1 - 1, l3⟩) (iblk1 V c 1 ⟨t.val - 1 - 1 - 1, l3⟩) _ a b, zero_entry]
  rw [product_block V c X W B hX hW hB t 3 (by show t.val % 4 = 3; exact h3) a b (rowOf t a) (colOf t b) rfl rfl (iblk1 V c 0 t) (iblk1 V c 1 t) rfl rfl,
    product_block V c X W B hX hW hB ⟨t.val - 1, l1⟩ 2 (by show (t.val - 1) % 4 = 2; omega) a b (rowOf t a) (colOf t b)
      (by show 1024 * (t.val / 8) + a.val = 1024 * ((t.val - 1) / 8) + a.val; omega)
      (by show 2048 * (t.val / 4 % 2) + b.val = 2048 * ((t.val - 1) / 4 % 2) + b.val; omega)
      (iblk1 V c 0 ⟨t.val - 1, l1⟩) (iblk1 V c 1 ⟨t.val - 1, l1⟩) rfl rfl,
    product_block V c X W B hX hW hB ⟨t.val - 1 - 1, l2⟩ 1 (by show (t.val - 1 - 1) % 4 = 1; omega) a b (rowOf t a) (colOf t b)
      (by show 1024 * (t.val / 8) + a.val = 1024 * ((t.val - 1 - 1) / 8) + a.val; omega)
      (by show 2048 * (t.val / 4 % 2) + b.val = 2048 * ((t.val - 1 - 1) / 4 % 2) + b.val; omega)
      (iblk1 V c 0 ⟨t.val - 1 - 1, l2⟩) (iblk1 V c 1 ⟨t.val - 1 - 1, l2⟩) rfl rfl,
    product_block V c X W B hX hW hB ⟨t.val - 1 - 1 - 1, l3⟩ 0 (by show (t.val - 1 - 1 - 1) % 4 = 0; omega) a b (rowOf t a) (colOf t b)
      (by show 1024 * (t.val / 8) + a.val = 1024 * ((t.val - 1 - 1 - 1) / 8) + a.val; omega)
      (by show 2048 * (t.val / 4 % 2) + b.val = 2048 * ((t.val - 1 - 1 - 1) / 4 % 2) + b.val; omega)
      (iblk1 V c 0 ⟨t.val - 1 - 1 - 1, l3⟩) (iblk1 V c 1 ⟨t.val - 1 - 1 - 1, l3⟩) rfl rfl,
    bias_block V c X W B hX hW hB t b (colOf t b) rfl]
  show _ = (∑ k : Fin 4096, X (ix2 (rowOf t a) k) * W (ix2 (colOf t b) k)) + B (ix2 (0 : Fin 1) (colOf t b))
  rw [QuantLinear.sum_blocks (fun k => X (ix2 (rowOf t a) k) * W (ix2 (colOf t b) k))]

/-- What a flushing point writes back is the layer read through the point's output block. -/
theorem flushed_eq (t : Fin cfg1.N) (hf : (cfg1.win 3).flush t = true) :
    (dat1 V c).flushed 3 t = ((cfg1.win 3).blk t).view.read (Elt Ideal) (QuantLinear.out2 X W B) := by
  have h3 : t.val % 4 = 3 := (flush1_3 t).mp hf
  obtain ⟨-, -, -, -, -, -, e6, e7⟩ := block_indices t
  have key : (outsAt1 V c t.val t.isLt : Vec Ideal S1024x2048 .f32)
      = fun j => QuantLinear.out2 X W B (ix2 (rowOf t (j 0)) (colOf t (j 1))) :=
    funext fun j => by rw [eq_ix2 j]; exact flush_entry V c X W B hX hW hB t h3 (j 0) (j 1)
  show (cfg1.win 3).cut (grid1.coords t) ((dat1 V c).after 3 t) = _
  rw [after1_3, key]
  funext y
  show QuantLinear.out2 X W B (ix2 (rowOf t (y 0)) (colOf t (y 1))) = QuantLinear.out2 X W B (((cfg1.win 3).blk t).view.emb y)
  refine congrArg (QuantLinear.out2 X W B) (funext fun ax => Fin.ext ?_)
  match ax with
  | ⟨0, _⟩ => show 1024 * (t.val / 8) + (y 0).val = win1_3.index t (0 : Fin 2) * 1024 + 1 * (y 0).val; rw [e6]; omega
  | ⟨1, _⟩ => show 2048 * (t.val / 4 % 2) + (y 1).val = win1_3.index t (1 : Fin 2) * 2048 + 1 * (y 1).val; rw [e7]; omega

omit V c X W B hX hW hB in
/-- An entry of the array is in point `t`'s output block iff each coordinate is in the block's range on its axis. -/
theorem mem_block (t : Fin cfg1.N) (i : S8192x4096.Idx) :
    i ∈ ((cfg1.win 3).blk t).view.set
      ↔ ∀ ax : Fin 2, win1_3.index t ax * S1024x2048.size ax ≤ (i ax).val
          ∧ (i ax).val < win1_3.index t ax * S1024x2048.size ax + S1024x2048.size ax := by
  show i ∈ ((View.whole main_v4).slice (win1_3.rect t)).set ↔ _
  rw [View.set_slice_whole, Rect.mem_set_unit]
  exact Iff.rfl

omit V c X W B hX hW hB in
/-- Every entry of the array is in the output block of a flushing point: the last point of its row and column block. -/
theorem covered (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  have lt : 8 * ((i 0).val / 1024) + 4 * ((i 1).val / 2048) + 3 < cfg1.N := by
    show 8 * ((i 0).val / 1024) + 4 * ((i 1).val / 2048) + 3 < grid1.N
    rw [N_1]; omega
  refine ⟨⟨8 * ((i 0).val / 1024) + 4 * ((i 1).val / 2048) + 3, lt⟩, (flush1_3 _).mpr (by show (8 * ((i 0).val / 1024) + 4 * ((i 1).val / 2048) + 3) % 4 = 3; omega), ?_⟩
  obtain ⟨-, -, -, -, -, -, e6, e7⟩ := block_indices ⟨8 * ((i 0).val / 1024) + 4 * ((i 1).val / 2048) + 3, lt⟩
  rw [mem_block]
  intro ax
  match ax with
  | ⟨0, _⟩ =>
    show win1_3.index _ (0 : Fin 2) * 1024 ≤ (i 0).val ∧ (i 0).val < win1_3.index _ (0 : Fin 2) * 1024 + 1024
    rw [e6]; show (8 * ((i 0).val / 1024) + 4 * ((i 1).val / 2048) + 3) / 8 * 1024 ≤ (i 0).val ∧ (i 0).val < (8 * ((i 0).val / 1024) + 4 * ((i 1).val / 2048) + 3) / 8 * 1024 + 1024
    omega
  | ⟨1, _⟩ =>
    show win1_3.index _ (1 : Fin 2) * 2048 ≤ (i 1).val ∧ (i 1).val < win1_3.index _ (1 : Fin 2) * 2048 + 2048
    rw [e7]; show (8 * ((i 0).val / 1024) + 4 * ((i 1).val / 2048) + 3) / 4 % 2 * 2048 ≤ (i 1).val ∧ (i 1).val < (8 * ((i 0).val / 1024) + 4 * ((i 1).val / 2048) + 3) / 4 % 2 * 2048 + 2048
    omega

omit X W B hX hW hB in
/-- Whatever the arrays hold when the region is entered, it leaves in its result array the layer of them on the
    flattened batch: input rows against weight rows, plus the bias row. -/
theorem layer_array :
    (dat1 (F := Ideal) V c).arrAt 3 cfg1.N = QuantLinear.out2 (V c main_v2) (V c main_v0) (V c main_v3) :=
  (dat1 V c).arrAt_eq_of_cover 3 (QuantLinear.out2 (V c main_v2) (V c main_v0) (V c main_v3))
    (flushed_eq V c (V c main_v2) (V c main_v0) (V c main_v3) rfl rfl rfl) covered

end Cert.KernelIdeal.Product

end
-- ==== Proof.KernelResult.lean ====
/-
  The idealized kernel's result is the layer of the launch arrays.

  Reading the result buffer at the last boundary backwards through the program: the last host operation lays the second
  region's flat output [8192, 4096] out as [4, 2048, 4096], entry (b, s, o) from flat entry (2048 b + s, o); the second
  region leaves there the layer on the flattened batch of what it was entered with; it was entered with the launch
  input flattened (flat row 2048 b + s is row s of batch b), with the bias as a one-row matrix, and with what the
  first region left, which is the weight matrix of the launch codes, scales and low-rank factors.
-/
import proofs.«171439_j11579231830187_2_alg».proof.Defs
import proofs.«171439_j11579231830187_2_alg».proof.Proof.Gen.KernelIdeal.Frame
import proofs.«171439_j11579231830187_2_alg».proof.Proof.Spec
import proofs.«171439_j11579231830187_2_alg».proof.Proof.HostStretches
import proofs.«171439_j11579231830187_2_alg».proof.Proof.Dequant
import proofs.«171439_j11579231830187_2_alg».proof.Proof.ProductBlocks
import Idealize.ShloMosaic.Lib.ValueIdx

set_option maxRecDepth 16384

noncomputable section

open scoped BigOperators

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The layer of the launch arrays: input, codes, scales, the two low-rank factors, bias. -/
abbrev layer (c : Dev nD) : S4x2048x4096.Idx → EReal :=
  QuantLinear.out (m ((c : Thread nD τ).loc main_arg0))
    (QuantLinear.weight (m ((c : Thread nD τ).loc main_arg1)) (m ((c : Thread nD τ).loc main_arg2)) (m ((c : Thread nD τ).loc main_arg3)) (m ((c : Thread nD τ).loc main_arg4)))
    (m ((c : Thread nD τ).loc main_arg5))

/-- Flat row `2048 b + s` is row `s` of batch `b`. -/
theorem batchRow_flat (b : Fin 4) (s : Fin 2048) (h : 2048 * b.val + s.val < 8192) :
    Stretch.batchRow ⟨2048 * b.val + s.val, h⟩ = (b, s) := by
  have hs := s.isLt
  refine Prod.ext (Fin.ext ?_) (Fin.ext ?_)
  · show (2048 * b.val + s.val) / 2048 = b.val; omega
  · show (2048 * b.val + s.val) % 2048 = s.val; omega

/-- The layer on the flattened batch, read at flat row `2048 b + s`, is the layer at batch `b`, row `s`, when the flat
    input is the input flattened and the one-row bias is the bias. -/
theorem layer_of_flat (x : S4x2048x4096.Idx → EReal) (wt : S4096x4096.Idx → EReal) (bias : S4096.Idx → EReal)
    (x2 : S8192x4096.Idx → EReal) (b2 : S1x4096.Idx → EReal)
    (hx : ∀ (r : Fin 8192) (k : Fin 4096), x2 (ix2 r k) = x (ix3 (Stretch.batchRow r).1 (Stretch.batchRow r).2 k))
    (hb : ∀ o : Fin 4096, b2 (ix2 (0 : Fin 1) o) = bias (ix1 o))
    (b : Fin 4) (s : Fin 2048) (o : Fin 4096) (h : 2048 * b.val + s.val < 8192) :
    QuantLinear.out2 x2 wt b2 (ix2 (⟨2048 * b.val + s.val, h⟩ : Fin 8192) o) = QuantLinear.out x wt bias (ix3 b s o) := by
  show (∑ k : Fin 4096, x2 (ix2 (⟨2048 * b.val + s.val, h⟩ : Fin 8192) k) * wt (ix2 o k)) + b2 (ix2 (0 : Fin 1) o)
      = (∑ k : Fin 4096, x (ix3 b s k) * wt (ix2 o k)) + bias (ix1 o)
  rw [hb o]
  refine congrArg (· + bias (ix1 o)) (Finset.sum_congr rfl fun k _ => ?_)
  rw [hx, batchRow_flat b s h]

/-- The result buffer's contents at the last boundary are the layer of the launch arrays. -/
theorem last_contents (c : Dev nD) :
    (W4 m ρ c (Proc.devRef .tc main_v5) : S4x2048x4096.Idx → EReal) = layer m c := by
  funext i
  obtain ⟨b, s, o, rfl⟩ : ∃ (b : Fin 4) (s : Fin 2048) (o : Fin 4096), i = ix3 b s o := ⟨i 0, i 1, i 2, eq_ix3 i⟩
  have hrow : 2048 * b.val + s.val < 8192 := by have := b.isLt; have := s.isLt; omega
  rw [Stretch.result_entry m ρ c b s o, Product.layer_array (V2 m ρ) c, Stretch.entry_weight m ρ c,
    Dequant.weight_array (V0 m ρ) c]
  exact layer_of_flat (m ((c : Thread nD τ).loc main_arg0))
    (QuantLinear.weight (V0 m ρ c main_arg1) (V0 m ρ c main_arg2) (V0 m ρ c main_arg3) (V0 m ρ c main_arg4))
    (m ((c : Thread nD τ).loc main_arg5)) (V2 m ρ c main_v2) (V2 m ρ c main_v3)
    (fun r k => Stretch.entry_input m ρ c r k) (fun o => Stretch.entry_bias m ρ c o) b s o hrow

end Cert.KernelIdeal.Result

end
-- ==== Proof.lean ====
/-
  A quantized linear layer computed by two tiled kernels equals its direct formula, on the extended reals.

  The layer takes an input x [4, 2048, 4096], a matrix of integer codes q [4096, 4096], scales s [4096, 32] (one per
  group of 128 consecutive columns of a row), low-rank factors U [4096, 32] and V [32, 4096], and a bias [4096]:
    weight (o, i) = (q (o, i) - 8) * s (o, i / 128) + ∑ r < 32, U (o, r) * V (r, i),
    out (b, s, o) = (∑ i < 4096, x (b, s, i) * weight (o, i)) + bias o.
  The reference program computes exactly this, operation by operation. The kernel program computes the weight in a
  first region, sixteen blocks of 256 rows, and the layer on the batch flattened to 8192 rows in a second region: for
  each block of 1024 rows and 2048 columns it starts from zero, adds the product over each of the four blocks of 1024
  contracted coordinates in turn, and adds the bias; the host flattens the input before and restores the batch shape
  after. A sum of 4096 terms is zero plus its four consecutive blocks of 1024 added in order, in any commutative
  monoid, so the two programs end at the same extended reals entry by entry; no entry needs to be finite for that, and
  the precondition is not used. Changes of float format are the identity on the extended reals.

  The three frames are the generated ones (the reference's is its generated run with the result dropped); the
  idealization rewrote nothing, so its conjunct is trivial.
-/
import proofs.«171439_j11579231830187_2_alg».proof.Defs
import proofs.«171439_j11579231830187_2_alg».proof.Proof.Gen.Kernel
import proofs.«171439_j11579231830187_2_alg».proof.Proof.Gen.Kernel.Frame
import proofs.«171439_j11579231830187_2_alg».proof.Proof.Gen.KernelIdeal
import proofs.«171439_j11579231830187_2_alg».proof.Proof.Gen.KernelIdeal.Frame
import proofs.«171439_j11579231830187_2_alg».proof.Proof.Gen.ReferenceIdeal
import proofs.«171439_j11579231830187_2_alg».proof.Proof.Gen.ReferenceIdeal.Run
import proofs.«171439_j11579231830187_2_alg».proof.Proof.Gen.ReferenceIdeal.Read
import proofs.«171439_j11579231830187_2_alg».proof.Proof.Gen.Pre_finite_inputs
import proofs.«171439_j11579231830187_2_alg».proof.Proof.Spec
import proofs.«171439_j11579231830187_2_alg».proof.Proof.RefValue
import proofs.«171439_j11579231830187_2_alg».proof.Proof.ResultRun
import proofs.«171439_j11579231830187_2_alg».proof.Proof.KernelResult
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernel_ideal : Cert.frame_KernelIdeal := fun m ρ _ => Cert.KernelIdeal.Gen.frame m ρ

/-- The reference program runs and keeps its arguments: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments both programs end with the layer of those arguments in their result:
    the kernel's result buffer at the last boundary is the layer, and the reference's composed term is the layer. -/
theorem algebraic : Cert.algebraic_KernelIdeal_ReferenceIdeal := by
  intro m ρ m' ρ' _ hagree
  refine ⟨fun c => Cert.KernelIdeal.Result.layer m c, ?_, ?_⟩
  · exact (θ_run Cert.KernelIdeal.defs _ _).mono
      (fun r h c => ⟨(h c).1.trans (Cert.KernelIdeal.Result.last_contents m ρ c), (h c).2⟩)
      (Cert.KernelIdeal.ResultRun.run (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v13_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))).trans ?_
    rw [Cert.ReferenceIdeal.RefValue.result_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
